-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096 : Shape := ⟨3, ![4, 32, 4096]⟩
abbrev S1409024 : Shape := ⟨1, ![1409024]⟩
abbrev S1409024x32 : Shape := ⟨2, ![1409024, 32]⟩
abbrev S11008 : Shape := ⟨1, ![11008]⟩
abbrev S_ : Shape := ⟨0, ![]⟩

class Facts : Prop where
  bcast_S_S4x32x4096 : S_.BroadcastsInDim S4x32x4096 (![] : Fin 0 → Fin S4x32x4096.rank)
  reducesTo_S4x32x4096_S_d0_1_2 : S4x32x4096.ReducesTo [0, 1, 2] S_
  h_S_ : 0 < S_.numel
  bcast_S_S1409024 : S_.BroadcastsInDim S1409024 (![] : Fin 0 → Fin S1409024.rank)
  reducesTo_S1409024_S_d0 : S1409024.ReducesTo [0] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x32x4096 .f32) (main_arg1 : FVec F S1409024 .f32) (main_arg2 : IVec S1409024x32 32) (main_arg3 : FVec F S11008 .f32) : IVec S_ 1 :=
  let main_v0 : FVec F S4x32x4096 .f32 := Host.absf main_arg0
  let main_cst : FVec F S_ .f32 := constant S_ .f32 0x7F800000#32
  let main_v1 : FVec F S4x32x4096 .f32 := broadcastInDim S4x32x4096 ![] bcast_S_S4x32x4096 main_cst
  let main_v2 : IVec S4x32x4096 1 := cmpf .olt main_v0 main_v1
  let main_c : IVec S_ 1 := constantI S_ 1 1#1
  let main_v3 : IVec S_ 1 := (fun x v => Host.reduce IntOp.andi x v reducesTo_S4x32x4096_S_d0_1_2 h_S_) main_v2 main_c
  let main_v4 : FVec F S1409024 .f32 := Host.absf main_arg1
  let main_cst_0 : FVec F S_ .f32 := constant S_ .f32 0x7F800000#32
  let main_v5 : FVec F S1409024 .f32 := broadcastInDim S1409024 ![] bcast_S_S1409024 main_cst_0
  let main_v6 : IVec S1409024 1 := cmpf .olt main_v4 main_v5
  let main_c_1 : IVec S_ 1 := constantI S_ 1 1#1
  let main_v7 : IVec S_ 1 := (fun x v => Host.reduce IntOp.andi x v reducesTo_S1409024_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x32x4096 : Shape := ⟨3, ![4, 32, 4096]⟩
abbrev S1409024 : Shape := ⟨1, ![1409024]⟩
abbrev S1409024x32 : Shape := ⟨2, ![1409024, 32]⟩
abbrev S11008 : Shape := ⟨1, ![11008]⟩
abbrev S128x4096 : Shape := ⟨2, ![128, 4096]⟩
abbrev S11008x4096 : Shape := ⟨2, ![11008, 4096]⟩
abbrev S11008x128 : Shape := ⟨2, ![11008, 128]⟩
abbrev S128x11008 : Shape := ⟨2, ![128, 11008]⟩
abbrev S256x4096 : Shape := ⟨2, ![256, 4096]⟩
abbrev S256x128 : Shape := ⟨2, ![256, 128]⟩
abbrev S256 : Shape := ⟨1, ![256]⟩
abbrev S128x256 : Shape := ⟨2, ![128, 256]⟩
abbrev S256x128x1 : Shape := ⟨3, ![256, 128, 1]⟩
abbrev S256x128x32 : Shape := ⟨3, ![256, 128, 32]⟩
abbrev S1x256 : Shape := ⟨2, ![1, 256]⟩
abbrev S4x32x11008 : Shape := ⟨3, ![4, 32, 11008]⟩

abbrev nBuf : Space → Nat
  | .hbm => 9
  | .vmem => 9
  | .smem => 0
  | _ => 0

abbrev bufTy : (tb : Table) → Fin (tcTables nBuf tb) → BufTy
  | .hbm, ⟨0, _⟩ => ⟨S4x32x4096, .f32⟩
  | .hbm, ⟨1, _⟩ => ⟨S1409024, .f32⟩
  | .hbm, ⟨2, _⟩ => ⟨S1409024x32, .i32⟩
  | .hbm, ⟨3, _⟩ => ⟨S11008, .f32⟩
  | .hbm, ⟨4, _⟩ => ⟨S128x4096, .f32⟩
  | .hbm, ⟨5, _⟩ => ⟨S11008x4096, .i32⟩
  | .hbm, ⟨6, _⟩ => ⟨S11008x128, .f32⟩
  | .hbm, ⟨7, _⟩ => ⟨S128x11008, .f32⟩
  | .hbm, ⟨8, _⟩ => ⟨S4x32x11008, .f32⟩
  | .local _ .vmem, ⟨0, _⟩ => ⟨S128x4096, .f32⟩
  | .local _ .vmem, ⟨1, _⟩ => ⟨S256x4096, .i32⟩
  | .local _ .vmem, ⟨2, _⟩ => ⟨S256x4096, .i32⟩
  | .local _ .vmem, ⟨3, _⟩ => ⟨S256x128, .f32⟩
  | .local _ .vmem, ⟨4, _⟩ => ⟨S256x128, .f32⟩
  | .local _ .vmem, ⟨5, _⟩ => ⟨S256, .f32⟩
  | .local _ .vmem, ⟨6, _⟩ => ⟨S256, .f32⟩
  | .local _ .vmem, ⟨7, _⟩ => ⟨S128x256, .f32⟩
  | .local _ .vmem, ⟨8, _⟩ => ⟨S128x256, .f32⟩
  | _, _ => ⟨S4x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x32x4096_S128x4096 : S4x32x4096.ShapeCasts S128x4096
  shapeCasts_S1409024x32_S11008x4096 : S1409024x32.ShapeCasts S11008x4096
  shapeCasts_S1409024_S11008x128 : S1409024.ShapeCasts S11008x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x128_S256x128x1 : S256x128.ShapeCasts S256x128x1
  shapeCasts_S256x128x1_S256x128x1 : S256x128x1.ShapeCasts S256x128x1
  broadcasts_S256x128x1_S256x128x32 : S256x128x1.Broadcasts S256x128x32
  shapeCasts_S256x128x32_S256x4096 : S256x128x32.ShapeCasts S256x4096
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  shapeCasts_S128x11008_S4x32x11008 : S128x11008.ShapeCasts S4x32x11008
  dot_S128x4096_S256x4096_S128x256_1_1_0_0_n_n_wf : DotDims.WF S128x4096 S256x4096 S128x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S11008x128.size a
  hwx0_2 : ∀ i : grid0.Coords, EltTy.bits .f32 = 32 ∨ (Rect.block (s := S11008x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S11008.size a
  hwx0_3 : ∀ i : grid0.Coords, EltTy.bits .f32 = 32 ∨ (Rect.block (s := S11008) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x11008.size a
  hwx0_4 : ∀ i : grid0.Coords, EltTy.bits .f32 = 32 ∨ (Rect.block (s := S128x11008) S128x256.size (cc0_transform_4 i) (hinb0_4 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x32x4096 : Shape := ⟨3, ![4, 32, 4096]⟩
abbrev S1409024 : Shape := ⟨1, ![1409024]⟩
abbrev S1409024x32 : Shape := ⟨2, ![1409024, 32]⟩
abbrev S11008 : Shape := ⟨1, ![11008]⟩
abbrev S_ : Shape := ⟨0, ![]⟩
abbrev S1409024x1 : Shape := ⟨2, ![1409024, 1]⟩
abbrev S11008x4096 : Shape := ⟨2, ![11008, 4096]⟩
abbrev S4x32x11008 : Shape := ⟨3, ![4, 32, 11008]⟩
abbrev S1x1x11008 : Shape := ⟨3, ![1, 1, 11008]⟩

abbrev nBuf : Space → Nat
  | .hbm => 16
  | .vmem => 0
  | .smem => 0
  | _ => 0

abbrev bufTy : (tb : Table) → Fin (tcTables nBuf tb) → BufTy
  | .hbm, ⟨0, _⟩ => ⟨S4x32x4096, .f32⟩
  | .hbm, ⟨1, _⟩ => ⟨S1409024, .f32⟩
  | .hbm, ⟨2, _⟩ => ⟨S1409024x32, .i32⟩
  | .hbm, ⟨3, _⟩ => ⟨S11008, .f32⟩
  | .hbm, ⟨4, _⟩ => ⟨S_, .i32⟩
  | .hbm, ⟨5, _⟩ => ⟨S1409024x32, .i32⟩
  | .hbm, ⟨6, _⟩ => ⟨S1409024x32, .i32⟩
  | .hbm, ⟨7, _⟩ => ⟨S1409024x32, .f32⟩
  | .hbm, ⟨8, _⟩ => ⟨S1409024x1, .f32⟩
  | .hbm, ⟨9, _⟩ => ⟨S1409024x32, .f32⟩
  | .hbm, ⟨10, _⟩ => ⟨S1409024x32, .f32⟩
  | .hbm, ⟨11, _⟩ => ⟨S11008x4096, .f32⟩
  | .hbm, ⟨12, _⟩ => ⟨S4x32x11008, .f32⟩
  | .hbm, ⟨13, _⟩ => ⟨S1x1x11008, .f32⟩
  | .hbm, ⟨14, _⟩ => ⟨S4x32x11008, .f32⟩
  | .hbm, ⟨15, _⟩ => ⟨S4x32x11008, .f32⟩
  | _, _ => ⟨S4x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S1409024x32 : S_.BroadcastsInDim S1409024x32 (![] : Fin 0 → Fin S1409024x32.rank)
  bcast_S1409024_S1409024x1_0 : S1409024.BroadcastsInDim S1409024x1 (![0] : Fin 1 → Fin S1409024x1.rank)
  bcast_S1409024x1_S1409024x32_0_1 : S1409024x1.BroadcastsInDim S1409024x32 (![0, 1] : Fin 2 → Fin S1409024x32.rank)
  shapeCasts_S1409024x32_S11008x4096 : S1409024x32.ShapeCasts S11008x4096
  bcast_S11008_S1x1x11008_2 : S11008.BroadcastsInDim S1x1x11008 (![2] : Fin 1 → Fin S1x1x11008.rank)
  bcast_S1x1x11008_S4x32x11008_0_1_2 : S1x1x11008.BroadcastsInDim S4x32x11008 (![0, 1, 2] : Fin 3 → Fin S4x32x11008.rank)
  dot_S4x32x4096_S11008x4096_S4x32x11008_2_1_01_0_n_n_wf : DotDims.WF S4x32x4096 S11008x4096 S4x32x11008 [2] [1] [0, 1] [0] [] []

variable [Facts₀]

def dot_S4x32x4096_S11008x4096_S4x32x11008_2_1_01_0_n_n : DotDims S4x32x4096 S11008x4096 S4x32x11008 where
  lhsContracting := [2]
  rhsContracting := [1]
  lhsNonContracting := [0, 1]
  rhsNonContracting := [0]
  lhsBatch := []
  rhsBatch := []
  wf := dot_S4x32x4096_S11008x4096_S4x32x11008_2_1_01_0_n_n_wf

class Facts : Prop extends Facts₀ where

variable [Facts]
-- ==== Proof.Spec.lean ====
/-
  The mathematics of the claim, with no program in sight.

  A linear layer whose weight matrix `W : [11008, 4096]` is stored quantised: the matrix, read row-major, is cut into
  1409024 consecutive blocks of 32 entries; block `n` carries one scale `scales[n]` and 32 integer codes
  `qweight[n, 0..31]`, and entry `e` of the block is `(qweight[n, e] - 128)` (the subtraction on 32-bit words, read
  signed) times `scales[n]`. So the matrix entry in row `o`, column `k` sits at flat position `o * 4096 + k`,
  that is in block `(o * 4096 + k) / 32` at lane `(o * 4096 + k) % 32`. The layer's result is
  `out[b, s, o] = (Σ_k x[b, s, k] * W[o, k]) + bias[o]` on the extended reals.

  Both programs compute this function: one dequantises the whole matrix and contracts it with `x`; the other
  works on 43 row bands of 256 rows of `W`, on the arrays re-laid as `x : [128, 4096]`, codes `[11008, 4096]`,
  scales `[11008, 128]` (row `o`, column `k / 32` is block `o * 128 + k / 32`, the same block), and writes
  `out` as `[128, 11008]` with row `b * 32 + s`.
-/
import Idealize.ShloMosaic.PureOps.Ideal
import Idealize.ShloMosaic.Lib.ValueIdx

noncomputable section

open scoped BigOperators

namespace Cert.Q8Linear

open Idealize.ShloMosaic Idealize.ShloMosaic.ValueIdx

/-- The quantisation block of the weight entry (row `o`, column `k`) is one of the 1409024 blocks. -/
theorem block_lt (o : Fin 11008) (k : Fin 4096) : (o.val * 4096 + k.val) / 32 < 1409024 := by
  have ho := o.isLt; have hk := k.isLt; omega

/-- Its lane inside the block is one of the 32 lanes. -/
theorem lane_lt (o : Fin 11008) (k : Fin 4096) : (o.val * 4096 + k.val) % 32 < 32 := Nat.mod_lt _ (by decide)

/-- The block of the weight entry (row `o`, column `k`). -/
abbrev blockOf (o : Fin 11008) (k : Fin 4096) : Fin 1409024 := ⟨(o.val * 4096 + k.val) / 32, block_lt o k⟩

/-- The lane of the weight entry (row `o`, column `k`) in its block. -/
abbrev laneOf (o : Fin 11008) (k : Fin 4096) : Fin 32 := ⟨(o.val * 4096 + k.val) % 32, lane_lt o k⟩

/-- Column `k` of the matrix lies in column `k / 32` of the scales laid out `[11008, 128]`, one of 128. -/
theorem scaleCol_lt (k : Fin 4096) : k.val / 32 < 128 := by have hk := k.isLt; omega

/-- The scale column of matrix column `k`. -/
abbrev scaleCol (k : Fin 4096) : Fin 128 := ⟨k.val / 32, scaleCol_lt k⟩

/-- A recentred code as an extended real: the 32-bit word minus 128, read as a signed integer. -/
def centred (w : BitVec 32) : EReal := (FloatOps.sitofp .f32 (IntOp.subi w 128#32) : Ideal .f32)

/-- The dequantised weight entry in row `o`, column `k`: its recentred code times its block's scale. -/
def weight (scales : (⟨1, ![1409024]⟩ : Shape).Idx → EReal) (codes : (⟨2, ![1409024, 32]⟩ : Shape).Idx → BitVec 32)
    (o : Fin 11008) (k : Fin 4096) : EReal :=
  centred (codes (ix2 (blockOf o k) (laneOf o k))) * scales (ix1 (blockOf o k))

/-- One entry of the layer's result: row `(b, s)` of `x` against row `o` of the dequantised matrix, plus the bias. -/
def entry (x : (⟨3, ![4, 32, 4096]⟩ : Shape).Idx → EReal) (scales : (⟨1, ![1409024]⟩ : Shape).Idx → EReal)
    (codes : (⟨2, ![1409024, 32]⟩ : Shape).Idx → BitVec 32) (bias : (⟨1, ![11008]⟩ : Shape).Idx → EReal)
    (b : Fin 4) (s : Fin 32) (o : Fin 11008) : EReal :=
  (∑ k : Fin 4096, x (ix3 b s k) * weight scales codes o k) + bias (ix1 o)

/-- THE RESULT, as one function of the four argument arrays, index by index. -/
def linear (x : (⟨3, ![4, 32, 4096]⟩ : Shape).Idx → EReal) (scales : (⟨1, ![1409024]⟩ : Shape).Idx → EReal)
    (codes : (⟨2, ![1409024, 32]⟩ : Shape).Idx → BitVec 32) (bias : (⟨1, ![11008]⟩ : Shape).Idx → EReal) :
    (⟨3, ![4, 32, 11008]⟩ : Shape).Idx → EReal :=
  fun i => entry x scales codes bias (i 0) (i 1) (i 2)

/-- The result at explicit coordinates. -/
theorem linear_apply (x : (⟨3, ![4, 32, 4096]⟩ : Shape).Idx → EReal) (scales : (⟨1, ![1409024]⟩ : Shape).Idx → EReal)
    (codes : (⟨2, ![1409024, 32]⟩ : Shape).Idx → BitVec 32) (bias : (⟨1, ![11008]⟩ : Shape).Idx → EReal)
    (b : Fin 4) (s : Fin 32) (o : Fin 11008) :
    linear x scales codes bias (ix3 b s o) = entry x scales codes bias b s o := rfl

end Cert.Q8Linear

end
-- ==== Proof.RefIsSpec.lean ====
/-
  The reference program computes the specification.

  Read one operation at a time, the reference's result at `(b, s, o)` is the sum over `k` of `x[b, s, k]` times the
  reshaped product array at `(o, k)`, plus `bias[o]`. The reshaped array at `(o, k)` is the `[1409024, 32]` product
  at block `(o * 4096 + k) / 32`, lane `(o * 4096 + k) % 32`, where it holds the block's scale times the recentred
  code. The specification multiplies the same two numbers in the other order; the product of extended reals commutes.
-/
import proofs.«119795_j22162031247686_1_alg».proof.Proof.Gen.ReferenceIdeal.Read
import proofs.«119795_j22162031247686_1_alg».proof.Proof.Spec

noncomputable section

open scoped BigOperators

namespace Cert.Q8Linear.Ref

open Idealize.ShloMosaic Idealize.ShloMosaic.ValueIdx
open Cert.ReferenceIdeal Cert.ReferenceIdeal.Read Cert.Q8Linear

/-- Entry `(o, k)` of the reshaped matrix comes from block `(o * 4096 + k) / 32`, lane `(o * 4096 + k) % 32`. -/
theorem reshape_src (o : Fin 11008) (k : Fin 4096) : idx_main_v6 (ix2 o k) = ix2 (blockOf o k) (laneOf o k) :=
  funext fun a => Fin.ext (by match a with | ⟨0, _⟩ => rfl | ⟨1, _⟩ => rfl)

/-- The scale broadcast along the 32 lanes is read at the block alone. -/
theorem scale_src (n : Fin 1409024) (e : Fin 32) : idx_main_v3 (idx_main_v4 (ix2 n e)) = ix1 n :=
  funext fun a => Fin.ext (by match a with | ⟨0, _⟩ => rfl)

/-- The left operand of the contraction at result index `(b, s, o)` and contracted position `k` is `x[b, s, k]`. -/
theorem lhs_src (b : Fin 4) (s : Fin 32) (o : Fin 11008) (k : Fin 4096) : lidx_main_v7 (ix3 b s o) k = ix3 b s k :=
  funext fun a => Fin.ext (by match a with | ⟨0, _⟩ => rfl | ⟨1, _⟩ => rfl | ⟨2, _⟩ => rfl)

/-- The right operand there is the matrix entry `(o, k)`. -/
theorem rhs_src (b : Fin 4) (s : Fin 32) (o : Fin 11008) (k : Fin 4096) : ridx_main_v7 (ix3 b s o) k = ix2 o k :=
  funext fun a => Fin.ext (by match a with | ⟨0, _⟩ => rfl | ⟨1, _⟩ => rfl)

/-- The bias broadcast over `(b, s)` is read at `o` alone. -/
theorem bias_src (b : Fin 4) (s : Fin 32) (o : Fin 11008) : idx_main_v8 (idx_main_v9 (ix3 b s o)) = ix1 o :=
  funext fun a => Fin.ext (by match a with | ⟨0, _⟩ => rfl)

/-- The reference's dequantised matrix at `(o, k)` is the specification's weight: scale times recentred code against
    recentred code times scale. -/
theorem matrix_apply (x1 : (⟨S1409024, .f32⟩ : BufTy).Contents (Elt Ideal)) (x2 : (⟨S1409024x32, .i32⟩ : BufTy).Contents (Elt Ideal))
    (o : Fin 11008) (k : Fin 4096) :
    val_main_v6 (F := Ideal) x1 x2 (ix2 o k) = weight x1 x2 o k := by
  rw [val_main_v6_apply, val_main_v5_apply, val_main_v4_apply, val_main_v3_apply, val_main_v2_apply, val_main_v1_apply,
    val_main_v0_apply, val_main_c_apply, reshape_src, scale_src]
  exact mul_comm _ _

/-- THE REFERENCE'S RESULT IS THE SPECIFICATION, index by index. -/
theorem result_eq (x0 : (⟨S4x32x4096, .f32⟩ : BufTy).Contents (Elt Ideal)) (x1 : (⟨S1409024, .f32⟩ : BufTy).Contents (Elt Ideal))
    (x2 : (⟨S1409024x32, .i32⟩ : BufTy).Contents (Elt Ideal)) (x3 : (⟨S11008, .f32⟩ : BufTy).Contents (Elt Ideal)) :
    val_main_v10 (F := Ideal) x0 x1 x2 x3 = linear x0 x1 x2 x3 := by
  funext i
  obtain ⟨b, s, o, rfl⟩ : ∃ (b : Fin 4) (s : Fin 32) (o : Fin 11008), i = ix3 b s o := ⟨i 0, i 1, i 2, eq_ix3 i⟩
  rw [val_main_v10_apply, val_main_v7_apply, val_main_v9_apply, val_main_v8_apply, bias_src, linear_apply]
  refine congrArg (· + x3 (ix1 o)) (Finset.sum_congr rfl fun k _ => ?_)
  rw [lhs_src, rhs_src, matrix_apply]

end Cert.Q8Linear.Ref

end
-- ==== Proof.Payload.lean ====
/-
  What one grid point of the kernel computes, entry by entry.

  The body loads a band of 256 rows of the codes `[256, 4096]`, the band's scales `[256, 128]`, the band's 256 biases and
  all of `x` as `[128, 4096]`, and stores the `[128, 256]` block whose entry `(p, r)` is
  `(Σ_k x[p, k] * ((codes[r, k] - 128) * scales[r, k / 32])) + bias[r]`:
  the changes of float format are the identity on extended reals; the scales are spread along a new last axis of 32 and
  the result `[256, 128, 32]` is re-read as `[256, 4096]`, so column `k` reads scale column `k / 32`; the matrix unit
  contracts axis 1 of both operands into a zero accumulator, which is the plain sum over `k`; the bias row is spread
  over the 128 rows.
-/
import proofs.«119795_j22162031247686_1_alg».proof.Proof.Gen.KernelIdeal.Skeleton
import proofs.«119795_j22162031247686_1_alg».proof.Proof.Spec
import Idealize.ShloMosaic.Lib.Pipeline.Value
import Idealize.ShloMosaic.Lib.ValueIdx
import Idealize.ShloMosaic.PureOps.Ideal.Laws

noncomputable section

open scoped BigOperators

namespace Cert.Q8Linear.Body

open Idealize.ShloMosaic Idealize.ShloMosaic.ValueIdx
open Cert.KernelIdeal Cert.KernelIdeal.Gen Cert.Q8Linear

/-- The band's scales spread along 32 lanes and re-read as `[256, 4096]`: entry `(r, k)` is scale `(r, k / 32)`. -/
theorem spread_apply {α : Type} (v : S256x128.Idx → α) (h1 : S256x128.ShapeCasts S256x128) (h2 : S256x128.ShapeCasts S256x128x1)
    (h3 : S256x128x1.ShapeCasts S256x128x1) (h4 : S256x128x1.Broadcasts S256x128x32) (h5 : S256x128x32.ShapeCasts S256x4096)
    (r : Fin 256) (k : Fin 4096) :
    shapeCast S256x4096 (broadcastTo S256x128x32 (shapeCast S256x128x1 (shapeCast S256x128x1 (shapeCast S256x128 v h1) h2) h3) h4) h5 (ix2 r k)
      = v (ix2 r (scaleCol k)) := by
  have hk := k.isLt
  rw [shapeCast_self v h1, shapeCast_self _ h3,
    shapeCast_apply _ h5 (ix2 r k) (ix3 r (scaleCol k) (⟨k.val % 32, Nat.mod_lt _ (by decide)⟩ : Fin 32)) (by
      rw [Shape.rowMajor_val_three, Shape.rowMajor_val_two]
      show (r.val * 128 + k.val / 32) * 32 + k.val % 32 = r.val * 4096 + k.val
      omega),
    broadcastTo_apply _ h4 _ (ix3 r (scaleCol k) (⟨0, Nat.one_pos⟩ : Fin 1)) (fun a => by
      match a with
      | ⟨0, _⟩ => show r.val = if (256 : Nat) = 1 then 0 else r.val; rw [if_neg (by decide)]
      | ⟨1, _⟩ => show k.val / 32 = if (128 : Nat) = 1 then 0 else k.val / 32; rw [if_neg (by decide)]
      | ⟨2, _⟩ => show 0 = if (1 : Nat) = 1 then 0 else k.val % 32; rw [if_pos rfl]),
    shapeCast_apply _ h2 _ (ix2 r (scaleCol k)) (by
      rw [Shape.rowMajor_val_two, Shape.rowMajor_val_three]
      show r.val * 128 + k.val / 32 = (r.val * 128 + k.val / 32) * 1 + 0
      omega)]

/-- The band's biases as one row spread over the 128 rows: entry `(p, r)` is bias `r`. -/
theorem biasRow_apply {α : Type} (v : S256.Idx → α) (h1 : S256.ShapeCasts S1x256) (h2 : S1x256.Broadcasts S128x256)
    (p : Fin 128) (r : Fin 256) :
    broadcastTo S128x256 (shapeCast S1x256 v h1) h2 (ix2 p r) = v (ix1 r) := by
  rw [broadcastTo_apply _ h2 _ (ix2 (⟨0, Nat.one_pos⟩ : Fin 1) r) (fun a => by
      match a with
      | ⟨0, _⟩ => show 0 = if (1 : Nat) = 1 then 0 else p.val; rw [if_pos rfl]
      | ⟨1, _⟩ => show r.val = if (256 : Nat) = 1 then 0 else r.val; rw [if_neg (by decide)]),
    shapeCast_apply _ h1 _ (ix1 r) (by
      rw [Shape.rowMajor_val_one, Shape.rowMajor_val_two]
      show r.val = 0 * 256 + r.val
      omega)]

/-- The left operand's index at result `(p, r)`: its row is `p`, … -/
theorem lhs_row (j : S128x256.Idx) (q : dot_S128x4096_S256x4096_S128x256_1_1_0_0_n_n.contr.Idx) : (dot_S128x4096_S256x4096_S128x256_1_1_0_0_n_n.lhsIdx j q 0).val = (j 0).val := by
  unfold DotDims.lhsIdx
  rw [dif_neg (show ¬(0 : Fin S128x4096.rank) ∈ dot_S128x4096_S256x4096_S128x256_1_1_0_0_n_n.lhsBatch by decide),
    dif_pos (show (0 : Fin S128x4096.rank) ∈ dot_S128x4096_S256x4096_S128x256_1_1_0_0_n_n.lhsNonContracting by decide)]
  rfl
/-- … its column the contracted position. -/
theorem lhs_col (j : S128x256.Idx) (q : dot_S128x4096_S256x4096_S128x256_1_1_0_0_n_n.contr.Idx) : (dot_S128x4096_S256x4096_S128x256_1_1_0_0_n_n.lhsIdx j q 1).val = (q ⟨0, by decide⟩).val :=
  dot_S128x4096_S256x4096_S128x256_1_1_0_0_n_n.lhsIdx_val_of_single rfl j q
/-- The right operand's index at result `(p, r)`: its row is `r`, … -/
theorem rhs_row (j : S128x256.Idx) (q : dot_S128x4096_S256x4096_S128x256_1_1_0_0_n_n.contr.Idx) : (dot_S128x4096_S256x4096_S128x256_1_1_0_0_n_n.rhsIdx j q 0).val = (j 1).val := by
  unfold DotDims.rhsIdx
  rw [dif_neg (show ¬(0 : Fin S256x4096.rank) ∈ dot_S128x4096_S256x4096_S128x256_1_1_0_0_n_n.rhsBatch by decide),
    dif_pos (show (0 : Fin S256x4096.rank) ∈ dot_S128x4096_S256x4096_S128x256_1_1_0_0_n_n.rhsNonContracting by decide)]
  rfl
/-- … its column the contracted position. -/
theorem rhs_col (j : S128x256.Idx) (q : dot_S128x4096_S256x4096_S128x256_1_1_0_0_n_n.contr.Idx) : (dot_S128x4096_S256x4096_S128x256_1_1_0_0_n_n.rhsIdx j q 1).val = (q ⟨0, by decide⟩).val :=
  dot_S128x4096_S256x4096_S128x256_1_1_0_0_n_n.rhsIdx_val_of_single rfl j q

/-- The matrix unit's product into a zero accumulator, contracting axis 1 of both operands: entry `(p, r)` is
    `Σ_k L[p, k] * R[r, k]`. -/
theorem matmul_at (L : FVec Ideal S128x4096 .bf16) (R : FVec Ideal S256x4096 .bf16) (p : Fin 128) (r : Fin 256) :
    matmul dot_S128x4096_S256x4096_S128x256_1_1_0_0_n_n none L R (constant S128x256 .f32 0x00000000#32) (ix2 p r) = ∑ k : Fin 4096, L (ix2 p k) * R (ix2 r k) := by
  simp only [matmul]
  rw [Ideal.matmul_constant_zero_apply, ← Equiv.sum_comp (contrEquiv1 dot_S128x4096_S256x4096_S128x256_1_1_0_0_n_n 4096 rfl rfl).symm]
  refine Finset.sum_congr rfl fun k _ => ?_
  have hk := contrEquiv1_symm_val dot_S128x4096_S256x4096_S128x256_1_1_0_0_n_n 4096 rfl rfl k
  have el : dot_S128x4096_S256x4096_S128x256_1_1_0_0_n_n.lhsIdx (ix2 p r) ((contrEquiv1 dot_S128x4096_S256x4096_S128x256_1_1_0_0_n_n 4096 rfl rfl).symm k) = ix2 p k := funext fun a => Fin.ext (by
    match a with
    | ⟨0, _⟩ => exact lhs_row _ _
    | ⟨1, _⟩ => exact (lhs_col _ _).trans hk)
  have er : dot_S128x4096_S256x4096_S128x256_1_1_0_0_n_n.rhsIdx (ix2 p r) ((contrEquiv1 dot_S128x4096_S256x4096_S128x256_1_1_0_0_n_n 4096 rfl rfl).symm k) = ix2 r k := funext fun a => Fin.ext (by
    match a with
    | ⟨0, _⟩ => exact rhs_row _ _
    | ⟨1, _⟩ => exact (rhs_col _ _).trans hk)
  rw [el, er]

/-- THE BODY'S STORED BLOCK at `(p, r)`, from the four loaded blocks. -/
theorem payload_apply (xb : Vec Ideal S128x4096 .f32) (qb : Vec Ideal S256x4096 .i32) (sb : Vec Ideal S256x128 .f32) (bb : Vec Ideal S256 .f32)
    (p : Fin 128) (r : Fin 256) :
    k0_pay1 (F := Ideal) xb qb sb bb (ix2 p r)
      = (∑ k : Fin 4096, xb (ix2 p k) * (centred (qb (ix2 r k)) * sb (ix2 r (scaleCol k)))) + bb (ix1 r) := by
  unfold k0_pay1
  refine (addf_apply _ _ _).trans ?_
  refine congrArg₂ (· + ·) ((matmul_at _ _ p r).trans (Finset.sum_congr rfl fun k _ => ?_)) (biasRow_apply bb _ _ p r)
  refine congrArg₂ (· * ·) ?_ ?_
  · exact congrFun (shapeCast_self xb _) (ix2 p k)
  · refine congrArg₂ (· * ·) ?_ (spread_apply sb _ _ _ _ _ r k)
    exact congrArg centred (congrFun (shapeCast_self qb _) (ix2 r k))

end Cert.Q8Linear.Body

end
-- ==== Proof.Relaid.lean ====
/-
  The same function on the arrays as the grid sees them.

  The grid works on `x` re-read as `[128, 4096]` (row `b * 32 + s`), the codes re-read as `[11008, 4096]`, the scales
  re-read as `[11008, 128]`, and produces `[128, 11008]`, re-read at the end as `[4, 32, 11008]`. All four are
  re-readings of the same row-major sequence, so:
  entry `(o, k)` of the codes `[11008, 4096]` is position `o * 4096 + k`, block `(o * 4096 + k) / 32`, lane
  `(o * 4096 + k) % 32`; entry `(o, k / 32)` of the scales `[11008, 128]` is position `o * 128 + k / 32`, and
  `o * 128 + k / 32 = (o * 4096 + k) / 32` because `4096 = 32 * 128`: the scale of the same block.
-/
import proofs.«119795_j22162031247686_1_alg».proof.Proof.Spec
import Idealize.ShloMosaic.Lib.Pipeline.Value

noncomputable section

open scoped BigOperators

namespace Cert.Q8Linear

open Idealize.ShloMosaic Idealize.ShloMosaic.ValueIdx

/-- One entry of the `[128, 11008]` result from the re-laid arrays: row `p` of `X` against row `o` of the codes, each
    code recentred and scaled by its row's scale in column `k / 32`, plus bias `o`. -/
def rowEntry (X : (⟨2, ![128, 4096]⟩ : Shape).Idx → EReal) (Q : (⟨2, ![11008, 4096]⟩ : Shape).Idx → BitVec 32)
    (Sc : (⟨2, ![11008, 128]⟩ : Shape).Idx → EReal) (B : (⟨1, ![11008]⟩ : Shape).Idx → EReal) (p : Fin 128) (o : Fin 11008) : EReal :=
  (∑ k : Fin 4096, X (ix2 p k) * (centred (Q (ix2 o k)) * Sc (ix2 o (scaleCol k)))) + B (ix1 o)

/-- The `[128, 11008]` result as one function of the re-laid arrays. -/
def band (X : (⟨2, ![128, 4096]⟩ : Shape).Idx → EReal) (Q : (⟨2, ![11008, 4096]⟩ : Shape).Idx → BitVec 32)
    (Sc : (⟨2, ![11008, 128]⟩ : Shape).Idx → EReal) (B : (⟨1, ![11008]⟩ : Shape).Idx → EReal) :
    (⟨2, ![128, 11008]⟩ : Shape).Idx → EReal :=
  fun j => rowEntry X Q Sc B (j 0) (j 1)

/-- Row `(b, s)` of `x` is row `b * 32 + s` of its `[128, 4096]` reading. -/
theorem row_lt (b : Fin 4) (s : Fin 32) : b.val * 32 + s.val < 128 := by have hb := b.isLt; have hs := s.isLt; omega

/-- THE RE-LAID RESULT, re-read as `[4, 32, 11008]`, IS THE SPECIFICATION of the original arrays. -/
theorem relaid_eq (x : (⟨3, ![4, 32, 4096]⟩ : Shape).Idx → EReal) (scales : (⟨1, ![1409024]⟩ : Shape).Idx → EReal)
    (codes : (⟨2, ![1409024, 32]⟩ : Shape).Idx → BitVec 32) (bias : (⟨1, ![11008]⟩ : Shape).Idx → EReal)
    (hx : (⟨3, ![4, 32, 4096]⟩ : Shape).ShapeCasts ⟨2, ![128, 4096]⟩)
    (hq : (⟨2, ![1409024, 32]⟩ : Shape).ShapeCasts ⟨2, ![11008, 4096]⟩)
    (hs : (⟨1, ![1409024]⟩ : Shape).ShapeCasts ⟨2, ![11008, 128]⟩)
    (ho : (⟨2, ![128, 11008]⟩ : Shape).ShapeCasts ⟨3, ![4, 32, 11008]⟩) :
    shapeCast ⟨3, ![4, 32, 11008]⟩ (band (shapeCast ⟨2, ![128, 4096]⟩ x hx) (shapeCast ⟨2, ![11008, 4096]⟩ codes hq)
        (shapeCast ⟨2, ![11008, 128]⟩ scales hs) bias) ho
      = linear x scales codes bias := by
  funext i
  obtain ⟨b, s, o, rfl⟩ : ∃ (b : Fin 4) (s : Fin 32) (o : Fin 11008), i = ix3 b s o := ⟨i 0, i 1, i 2, eq_ix3 i⟩
  have hb := b.isLt; have hs' := s.isLt; have ho' := o.isLt
  rw [shapeCast_apply _ ho (ix3 b s o) (ix2 (⟨b.val * 32 + s.val, row_lt b s⟩ : Fin 128) o) (by
      rw [Shape.rowMajor_val_two, Shape.rowMajor_val_three]
      show (b.val * 32 + s.val) * 11008 + o.val = (b.val * 32 + s.val) * 11008 + o.val
      rfl),
    linear_apply]
  show rowEntry _ _ _ bias (⟨b.val * 32 + s.val, row_lt b s⟩ : Fin 128) o = entry x scales codes bias b s o
  unfold rowEntry entry
  refine congrArg (· + bias (ix1 o)) (Finset.sum_congr rfl fun k _ => ?_)
  have hk := k.isLt
  unfold weight
  rw [shapeCast_apply x hx (ix2 (⟨b.val * 32 + s.val, row_lt b s⟩ : Fin 128) k) (ix3 b s k) (by
      rw [Shape.rowMajor_val_three, Shape.rowMajor_val_two]
      show (b.val * 32 + s.val) * 4096 + k.val = (b.val * 32 + s.val) * 4096 + k.val
      rfl),
    shapeCast_apply codes hq (ix2 o k) (ix2 (blockOf o k) (laneOf o k)) (by
      rw [Shape.rowMajor_val_two, Shape.rowMajor_val_two]
      show (o.val * 4096 + k.val) / 32 * 32 + (o.val * 4096 + k.val) % 32 = o.val * 4096 + k.val
      omega),
    shapeCast_apply scales hs (ix2 o (scaleCol k)) (ix1 (blockOf o k)) (by
      rw [Shape.rowMajor_val_one, Shape.rowMajor_val_two]
      show (o.val * 4096 + k.val) / 32 = o.val * 128 + k.val / 32
      omega)]

end Cert.Q8Linear

end
-- ==== Proof.Point.lean ====
/-
  One grid point against the re-laid arrays.

  Grid point `T` (of 43) loads rows `T * 256 … T * 256 + 255` of the codes, of the scales and of the bias, and all of
  `x`; so its stored block at `(p, r)` is the `[128, 11008]` result at `(p, T * 256 + r)`. Stated over arbitrary loaded
  blocks that agree with the arrays in this way, so that no block of a particular point is ever opened here.
-/
import proofs.«119795_j22162031247686_1_alg».proof.Proof.Payload
import proofs.«119795_j22162031247686_1_alg».proof.Proof.Relaid

noncomputable section

open scoped BigOperators

namespace Cert.Q8Linear.Body

open Idealize.ShloMosaic Idealize.ShloMosaic.ValueIdx
open Cert.KernelIdeal Cert.KernelIdeal.Gen Cert.Q8Linear

/-- Row `r` of band `T` is row `T * 256 + r` of the matrix, one of 11008 (`43 * 256 = 11008`). -/
theorem bandRow_lt (T : Nat) (hT : T < 43) (r : Fin 256) : T * 256 + r.val < 11008 := by have hr := r.isLt; omega

/-- Row `r` of band `T` as a row of the matrix. -/
abbrev bandRow (T : Nat) (hT : T < 43) (r : Fin 256) : Fin 11008 := ⟨T * 256 + r.val, bandRow_lt T hT r⟩

/-- POINT `T`'S STORED BLOCK at `(p, r)` is the re-laid result at `(p, T * 256 + r)`, whenever the loaded blocks are
    all of `X` and band `T` of the codes, the scales and the bias. -/
theorem point_apply (X : (⟨2, ![128, 4096]⟩ : Shape).Idx → EReal) (Q : (⟨2, ![11008, 4096]⟩ : Shape).Idx → BitVec 32)
    (Sc : (⟨2, ![11008, 128]⟩ : Shape).Idx → EReal) (B : (⟨1, ![11008]⟩ : Shape).Idx → EReal)
    (xb : Vec Ideal S128x4096 .f32) (qb : Vec Ideal S256x4096 .i32) (sb : Vec Ideal S256x128 .f32) (bb : Vec Ideal S256 .f32)
    (T : Nat) (hT : T < 43)
    (hx : ∀ (p : Fin 128) (k : Fin 4096), xb (ix2 p k) = X (ix2 p k))
    (hq : ∀ (r : Fin 256) (k : Fin 4096), qb (ix2 r k) = Q (ix2 (bandRow T hT r) k))
    (hs : ∀ (r : Fin 256) (g : Fin 128), sb (ix2 r g) = Sc (ix2 (bandRow T hT r) g))
    (hb : ∀ r : Fin 256, bb (ix1 r) = B (ix1 (bandRow T hT r)))
    (p : Fin 128) (r : Fin 256) :
    k0_pay1 (F := Ideal) xb qb sb bb (ix2 p r) = rowEntry X Q Sc B p (bandRow T hT r) := by
  rw [payload_apply]
  unfold rowEntry
  rw [hb r]
  refine congrArg (· + B (ix1 (bandRow T hT r))) (Finset.sum_congr rfl fun k _ => ?_)
  rw [hx p k, hq r k, hs r (scaleCol k)]

end Cert.Q8Linear.Body

end
-- ==== Proof.KernelValue.lean ====
/-
  The kernel program's result array.

  Before the grid the program re-reads `x` as `[128, 4096]`, the codes as `[11008, 4096]` and the scales as `[11008, 128]`.
  Grid point `t` then reads all of `x` (block `(0, 0)` of size `[128, 4096]`), band `t` of the codes (block `(t, 0)` of
  size `[256, 4096]`), band `t` of the scales (block `(t, 0)` of size `[256, 128]`) and band `t` of the bias (block `t` of
  size 256), and writes back block `(0, t)` of size `[128, 256]` of the `[128, 11008]` result: columns
  `t * 256 … t * 256 + 255`. Column `o` is in the block of point `o / 256`, and `11008 = 43 * 256`, so the 43 blocks cover
  the result, which is therefore the one function `band` of the re-laid arrays. After the grid the program re-reads
  that result as `[4, 32, 11008]`, which is the specification of the original arrays.
-/
import proofs.«119795_j22162031247686_1_alg».proof.Proof.Gen.KernelIdeal.Frame
import proofs.«119795_j22162031247686_1_alg».proof.Proof.Point
import Idealize.ShloMosaic.Lib.Pipeline.Value
import Idealize.ShloMosaic.Lib.StableHlo.Run

noncomputable section

namespace Cert.Q8Linear.Grid

open Cert.KernelIdeal Cert.KernelIdeal.Gen Idealize.ShloMosaic Idealize.ShloMosaic.TcCoe Idealize.SL.Sem
open Idealize.ShloMosaic.Pipeline (Dat)
open Idealize.ShloMosaic.ValueIdx Cert.Q8Linear Cert.Q8Linear.Body

variable (m : (ℓ : Loc nD τ sig) → Buf (Elt Ideal) ℓ) (ρ : Dev nD → PrngReg)

/-! ## The arrays the grid finds -/

/-- The grid finds `x` re-read as `[128, 4096]`. -/
theorem entry_x (c : Dev nD) :
    (V m c main_v0 : S128x4096.Idx → EReal) = shapeCast S128x4096 (m ((c : Thread nD τ).loc main_arg0)) shapeCasts_S4x32x4096_S128x4096 := by
  show StableHlo.after hostOps0 (fun b => m (c, b)) (Proc.devRef .tc main_v0) = _
  after_results
  rfl

/-- The grid finds the codes re-read as `[11008, 4096]`. -/
theorem entry_codes (c : Dev nD) :
    (V m c main_v1 : S11008x4096.Idx → BitVec 32) = shapeCast S11008x4096 (m ((c : Thread nD τ).loc main_arg2)) shapeCasts_S1409024x32_S11008x4096 := by
  show StableHlo.after hostOps0 (fun b => m (c, b)) (Proc.devRef .tc main_v1) = _
  after_results
  rfl

/-- The grid finds the scales re-read as `[11008, 128]`. -/
theorem entry_scales (c : Dev nD) :
    (V m c main_v2 : S11008x128.Idx → EReal) = shapeCast S11008x128 (m ((c : Thread nD τ).loc main_arg1)) shapeCasts_S1409024_S11008x128 := by
  show StableHlo.after hostOps0 (fun b => m (c, b)) (Proc.devRef .tc main_v2) = _
  after_results
  rfl

/-! ## Which block each window holds at a point -/

theorem zeros2 : (![0, 0] : Fin 2 → Nat) = fun _ => 0 := funext fun a => by fin_cases a <;> rfl
theorem zeros1 : (![0] : Fin 1 → Nat) = fun _ => 0 := funext fun a => by fin_cases a <;> rfl

/-- The block indices at point `t`, for the five windows: `x` stays at `(0, 0)`; the codes, the scales and the bias are
    at band `t`; the result is at column block `t`. Decided over the 43 points. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = t.val :=
  (by decide +kernel : ∀ t : Fin grid0.N, _)

/-- A point's number is below 43. -/
theorem point_lt (t : Fin cfg0.N) : t.val < 43 := by have h := t.isLt; have hN : cfg0.N = 43 := N_0; omega

/-! ## What a point writes back -/

/-- WHAT POINT `t` WRITES BACK is block `t` of `band` of the arrays the grid finds. -/
theorem flushed_eq (c : Dev nD) (t : Fin cfg0.N) :
    (dats m 0 c).flushed 4 t
      = ((cfg0.win 4).blk t).view.read (Elt Ideal) (band (V m c main_v0) (V m c main_v1) (V m c main_v2) (V m c main_arg3)) := by
  show (cfg0.win 4).cut (grid0.coords t) ((dats m 0 c).after 4 t) = _
  rw [after0_4]
  unfold out0_4
  rw [View.canon_unit_zero zeros2]
  simp only [View.ld_unit_zero (S := S128x4096) zeros2, View.ld_unit_zero (S := S256x4096) zeros2,
    View.ld_unit_zero (S := S256x128) zeros2, View.ld_unit_zero (S := S256) zeros1]
  obtain ⟨e00, e01, e10, e11, e20, e21, e30, e40, e41⟩ := block_index t
  have hT := point_lt t
  funext j
  have hj0 : (j 0).val < 128 := (j 0).isLt
  have hj1 : (j 1).val < 256 := (j 1).isLt
  show k0_pay1 (iblk m c 0 t) (iblk m c 1 t) (iblk m c 2 t) (iblk m c 3 t) j
    = rowEntry (V m c main_v0) (V m c main_v1) (V m c main_v2) (V m c main_arg3)
        ((((cfg0.win 4).blk t).view.emb j) 0) ((((cfg0.win 4).blk t).view.emb j) 1)
  have hrow : (((cfg0.win 4).blk t).view.emb j) 0 = (⟨(j 0).val, hj0⟩ : Fin 128) := Fin.ext (by
    show win0_4.index t (0 : Fin 2) * 128 + 1 * (j 0).val = (j 0).val; omega)
  have hcol : (((cfg0.win 4).blk t).view.emb j) 1 = bandRow t.val hT (⟨(j 1).val, hj1⟩ : Fin 256) := Fin.ext (by
    show win0_4.index t (1 : Fin 2) * 256 + 1 * (j 1).val = t.val * 256 + (j 1).val; omega)
  have hj : (j : S128x256.Idx) = ix2 (⟨(j 0).val, hj0⟩ : Fin 128) (⟨(j 1).val, hj1⟩ : Fin 256) :=
    funext fun a => by match a with | ⟨0, _⟩ => rfl | ⟨1, _⟩ => rfl
  rw [hrow, hcol]
  refine (congrArg (k0_pay1 (iblk m c 0 t) (iblk m c 1 t) (iblk m c 2 t) (iblk m c 3 t)) hj).trans ?_
  refine point_apply (V m c main_v0) (V m c main_v1) (V m c main_v2) (V m c main_arg3)
    (iblk m c 0 t) (iblk m c 1 t) (iblk m c 2 t) (iblk m c 3 t) t.val hT ?_ ?_ ?_ ?_ (⟨(j 0).val, hj0⟩ : Fin 128) (⟨(j 1).val, hj1⟩ : Fin 256)
  · intro p k
    have hp := p.isLt; have hk := k.isLt
    show V m c main_v0 (((cfg0.win 0).blk t).view.emb (ix2 p k)) = V m c main_v0 (ix2 p k)
    refine congrArg (V m c main_v0) (funext fun a => Fin.ext ?_)
    match a with
    | ⟨0, _⟩ => show win0_0.index t (0 : Fin 2) * 128 + 1 * p.val = p.val; omega
    | ⟨1, _⟩ => show win0_0.index t (1 : Fin 2) * 4096 + 1 * k.val = k.val; omega
  · intro r k
    have hr := r.isLt; have hk := k.isLt
    show V m c main_v1 (((cfg0.win 1).blk t).view.emb (ix2 r k)) = V m c main_v1 (ix2 (bandRow t.val hT r) k)
    refine congrArg (V m c main_v1) (funext fun a => Fin.ext ?_)
    match a with
    | ⟨0, _⟩ => show win0_1.index t (0 : Fin 2) * 256 + 1 * r.val = t.val * 256 + r.val; omega
    | ⟨1, _⟩ => show win0_1.index t (1 : Fin 2) * 4096 + 1 * k.val = k.val; omega
  · intro r g
    have hr := r.isLt; have hg := g.isLt
    show V m c main_v2 (((cfg0.win 2).blk t).view.emb (ix2 r g)) = V m c main_v2 (ix2 (bandRow t.val hT r) g)
    refine congrArg (V m c main_v2) (funext fun a => Fin.ext ?_)
    match a with
    | ⟨0, _⟩ => show win0_2.index t (0 : Fin 2) * 256 + 1 * r.val = t.val * 256 + r.val; omega
    | ⟨1, _⟩ => show win0_2.index t (1 : Fin 2) * 128 + 1 * g.val = g.val; omega
  · intro r
    have hr := r.isLt
    show V m c main_arg3 (((cfg0.win 3).blk t).view.emb (ix1 r)) = V m c main_arg3 (ix1 (bandRow t.val hT r))
    refine congrArg (V m c main_arg3) (funext fun a => Fin.ext ?_)
    match a with
    | ⟨0, _⟩ => show win0_3.index t (0 : Fin 1) * 256 + 1 * r.val = t.val * 256 + r.val; omega

/-! ## The blocks cover the result -/

/-- An index of the result is in point `t`'s block iff each coordinate is in the block's range on its axis. -/
theorem mem_block (t : Fin cfg0.N) (i : S128x11008.Idx) :
    i ∈ ((cfg0.win 4).blk t).view.set
      ↔ ∀ a : Fin 2, win0_4.index t a * S128x256.size a ≤ (i a).val ∧ (i a).val < win0_4.index t a * S128x256.size a + S128x256.size a := by
  show i ∈ ((View.whole main_v3).slice (win0_4.rect t)).set ↔ _
  rw [View.set_slice_whole, Rect.mem_set_unit]
  exact Iff.rfl

/-- Column `o` of the result is written back by point `o / 256`. -/
theorem covered (i : S128x11008.Idx) :
    ∃ t : Fin cfg0.N, (cfg0.win 4).flush t = true ∧ i ∈ ((cfg0.win 4).blk t).view.set := by
  have h0 : (i 0).val < 128 := (i 0).isLt
  have h1 : (i 1).val < 11008 := (i 1).isLt
  have hN : cfg0.N = 43 := N_0
  obtain ⟨t, ht⟩ : ∃ t : Fin cfg0.N, t.val = (i 1).val / 256 := ⟨⟨(i 1).val / 256, by omega⟩, rfl⟩
  obtain ⟨e00, e01, e10, e11, e20, e21, e30, e40, e41⟩ := block_index t
  refine ⟨t, flush0_4 t, ?_⟩
  rw [mem_block]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 256 ≤ (i 1).val ∧ (i 1).val < win0_4.index t (1 : Fin 2) * 256 + 256; omega

/-- THE RESULT ARRAY AFTER THE GRID is `band` of the arrays the grid found. -/
theorem final (c : Dev nD) :
    (dats m 0 c).arrAt 4 cfg0.N = band (V m c main_v0) (V m c main_v1) (V m c main_v2) (V m c main_arg3) :=
  (dats m 0 c).arrAt_eq_of_cover 4 _ (fun t _ => flushed_eq m c t) covered

/-! ## The program's result -/

/-- After the grid the program's result is the grid's array re-read as `[4, 32, 11008]`. -/
theorem tail_eq (c : Dev nD) :
    Pipeline.afterTail₀ cfgs (dats m) 0 (V0 m) [hostOps1] c main_v4
      = shapeCast S4x32x11008 ((dats m 0 c).arrAt 4 cfg0.N) shapeCasts_S128x11008_S4x32x11008 := by
  have hw : Pipeline.withArrays (cfgs 0).spec c (V0 m c) (fun w => (dats m 0 c).arrAt w (cfgs 0).N) (Proc.devRef .tc main_v3)
      = (dats m 0 c).arrAt 4 cfg0.N := Pipeline.withArrays_arr spec0 launch0.win.arr_inj c _ _ 4
  unfold Pipeline.afterTail₀
  show StableHlo.after hostOps1 _ (Proc.devRef .tc main_v4) = _
  after_results
  rw [hw]
  rfl

/-- THE PROGRAM'S RESULT is the specification of the argument arrays. -/
theorem result_eq (c : Dev nD) :
    Pipeline.afterTail₀ cfgs (dats m) 0 (V0 m) [hostOps1] c main_v4
      = linear (m ((c.tc : Thread nD τ).loc main_arg0)) (m ((c.tc : Thread nD τ).loc main_arg1))
          (m ((c.tc : Thread nD τ).loc main_arg2)) (m ((c.tc : Thread nD τ).loc main_arg3)) := by
  rw [tail_eq, final, entry_x, entry_codes, entry_scales, V_main_arg3]
  exact relaid_eq _ _ _ _ _ _ _ _

/-- Every weakly fair execution of the kernel program terminates with its result at the specification of the
    argument arrays, and the argument arrays unchanged. -/
theorem run : θ_run defs (onTc (τ := τ) (main (F := Ideal))) ⟨m, fun _ => 0, ρ⟩ fun r => ∀ c : Dev nD,
      r.2.mem ((c.tc : Thread nD τ).loc main_v4)
        = linear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.Q8Linear.Grid

end
-- ==== Proof.lean ====
/-
  The proof of `Cert.Claim`: a linear layer with block-quantised weights (blocks of 32 codes, one scale each),
  computed band by band on a grid against the reference that dequantises the whole matrix first.

  Both idealized programs end with their result at ONE function of the four argument arrays, `Cert.Q8Linear.linear`
  (Proof/Spec.lean): `out[b, s, o] = (Σ_k x[b, s, k] * ((codes[n, e] - 128) * scales[n])) + bias[o]` with
  `n = (o * 4096 + k) / 32`, `e = (o * 4096 + k) % 32`. The reference multiplies scale by code and the kernel code by
  scale (the product of extended reals commutes); the kernel's changes of float format are the identity there; its 43
  bands of 256 matrix rows tile the `[128, 11008]` result; and the re-readings of the arrays before and after the grid keep
  the row-major order, under which the scale of matrix entry `(o, k)` sits in column `k / 32` of the re-laid scales because
  `4096 = 32 * 128`. No finiteness of the inputs is used. The three frames are the programs' runs with the result dropped;
  nothing was rewritten on the way to the idealized kernel, so there is nothing to preserve.
-/
import proofs.«119795_j22162031247686_1_alg».proof.Defs
import proofs.«119795_j22162031247686_1_alg».proof.Proof.Gen.Kernel
import proofs.«119795_j22162031247686_1_alg».proof.Proof.Gen.Kernel.Skeleton
import proofs.«119795_j22162031247686_1_alg».proof.Proof.Gen.Kernel.Launch
import proofs.«119795_j22162031247686_1_alg».proof.Proof.Gen.Kernel.Points
import proofs.«119795_j22162031247686_1_alg».proof.Proof.Gen.Kernel.Frame
import proofs.«119795_j22162031247686_1_alg».proof.Proof.Gen.KernelIdeal
import proofs.«119795_j22162031247686_1_alg».proof.Proof.Gen.KernelIdeal.Skeleton
import proofs.«119795_j22162031247686_1_alg».proof.Proof.Gen.KernelIdeal.Launch
import proofs.«119795_j22162031247686_1_alg».proof.Proof.Gen.KernelIdeal.Points
import proofs.«119795_j22162031247686_1_alg».proof.Proof.Gen.KernelIdeal.Frame
import proofs.«119795_j22162031247686_1_alg».proof.Proof.Gen.ReferenceIdeal
import proofs.«119795_j22162031247686_1_alg».proof.Proof.Gen.Pre_finite_inputs
import proofs.«119795_j22162031247686_1_alg».proof.Proof.Gen.ReferenceIdeal.Run
import proofs.«119795_j22162031247686_1_alg».proof.Proof.Gen.ReferenceIdeal.Read
import proofs.«119795_j22162031247686_1_alg».proof.Proof.RefIsSpec
import proofs.«119795_j22162031247686_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with their results at the specification of the
    (same) argument arrays: the kernel program by its grid read band by band, the reference by its operations read one
    at a time. -/
theorem algebraic : Cert.algebraic_KernelIdeal_ReferenceIdeal := by
  intro m ρ m' ρ' _ hagree
  refine ⟨fun c => Cert.Q8Linear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Q8Linear.Grid.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.Q8Linear.Ref.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
